-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S16x256 : Shape := ⟨2, ![16, 256]⟩
abbrev S256x16 : Shape := ⟨2, ![256, 16]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x56x56 .f32) (main_arg1 : FVec F S16x256 .f32) (main_arg2 : FVec F S256x16 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x56x56 : Shape := ⟨4, ![32, 256, 56, 56]⟩
abbrev S16x256 : Shape := ⟨2, ![16, 256]⟩
abbrev S256x16 : Shape := ⟨2, ![256, 16]⟩
abbrev S1x256x56x56 : Shape := ⟨4, ![1, 256, 56, 56]⟩
abbrev S1x256 : Shape := ⟨2, ![1, 256]⟩
abbrev S1x16 : Shape := ⟨2, ![1, 16]⟩
abbrev S1x256x1x1 : Shape := ⟨4, ![1, 256, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S256x16, .f32⟩
  | .hbm, ⟨4, _⟩ => ⟨S16x256, .f32⟩
  | .hbm, ⟨5, _⟩ => ⟨S32x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S256x16, .f32⟩
  | .local _ .vmem, ⟨3, _⟩ => ⟨S16x256, .f32⟩
  | .local _ .vmem, ⟨4, _⟩ => ⟨S1x256x56x56, .f32⟩
  | .local _ .vmem, ⟨5, _⟩ => ⟨S1x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x256_S256x16_1_0 : S16x256.Transposes [1, 0] S256x16
  transposes_S256x16_S16x256_1_0 : S256x16.Transposes [1, 0] S16x256
  inb_S1x256x56x56_S1x256x56x56_0_0_0_0 : ∀ a, (![0, 0, 0, 0] : Fin 4 → Nat) a + S1x256x56x56.size a ≤ S1x256x56x56.size a
  h_S1x256x56x56 : 0 < S1x256x56x56.numel
  reduces_S1x256x56x56_S1x256 : S1x256x56x56.Reduces [2, 3] S1x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S1x256_S1x256x1x1 : S1x256.ShapeCasts S1x256x1x1
  broadcasts_S1x256x1x1_S1x256x56x56 : S1x256x1x1.Broadcasts S1x256x56x56
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S32x256x56x56.size a
  hwx0_0 : ∀ i : grid0.Coords, EltTy.bits .f32 = 32 ∨ (Rect.block (s := S32x256x56x56) S1x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x56x56.size a ≤ S32x256x56x56.size a
  hwx0_3 : ∀ i : grid0.Coords, EltTy.bits .f32 = 32 ∨ (Rect.block (s := S32x256x56x56) S1x256x56x56.size (cc0_transform_3 i) (hinb0_3 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S16x256 : Shape := ⟨2, ![16, 256]⟩
abbrev S256x16 : Shape := ⟨2, ![256, 16]⟩
abbrev S32x256x3136 : Shape := ⟨3, ![32, 256, 3136]⟩
abbrev S_ : Shape := ⟨0, ![]⟩
abbrev S32x256x3200 : Shape := ⟨3, ![32, 256, 3200]⟩
abbrev S1x256x3200 : Shape := ⟨3, ![1, 256, 3200]⟩
abbrev S1x256 : Shape := ⟨2, ![1, 256]⟩
abbrev S1x16 : Shape := ⟨2, ![1, 16]⟩
abbrev S1x256x1 : Shape := ⟨3, ![1, 256, 1]⟩

abbrev nBuf : Space → Nat
  | .hbm => 12
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S32x256x3136, .f32⟩
  | .hbm, ⟨4, _⟩ => ⟨S256x16, .f32⟩
  | .hbm, ⟨5, _⟩ => ⟨S16x256, .f32⟩
  | .hbm, ⟨6, _⟩ => ⟨S_, .i32⟩
  | .hbm, ⟨7, _⟩ => ⟨S_, .f32⟩
  | .hbm, ⟨8, _⟩ => ⟨S32x256x3200, .f32⟩
  | .hbm, ⟨9, _⟩ => ⟨S32x256x3200, .f32⟩
  | .hbm, ⟨10, _⟩ => ⟨S32x256x3136, .f32⟩
  | .hbm, ⟨11, _⟩ => ⟨S32x256x56x56, .f32⟩
  | .local _ .vmem, ⟨0, _⟩ => ⟨S1x256x3200, .f32⟩
  | .local _ .vmem, ⟨1, _⟩ => ⟨S1x256x3200, .f32⟩
  | .local _ .vmem, ⟨2, _⟩ => ⟨S256x16, .f32⟩
  | .local _ .vmem, ⟨3, _⟩ => ⟨S16x256, .f32⟩
  | .local _ .vmem, ⟨4, _⟩ => ⟨S1x256x3200, .f32⟩
  | .local _ .vmem, ⟨5, _⟩ => ⟨S1x256x3200, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x56x56_S32x256x3136 : S32x256x56x56.ShapeCasts S32x256x3136
  transposes_S16x256_S256x16_1_0 : S16x256.Transposes [1, 0] S256x16
  transposes_S256x16_S16x256_1_0 : S256x16.Transposes [1, 0] S16x256
  pads_S32x256x3136_S32x256x3200_000_000_0640 : S32x256x3136.Pads (![0, 0, 0] : Fin 3 → Nat) ![0, 0, 64] ![0, 0, 0] S32x256x3200
  h_S_ : 0 < S_.numel
  inb_S1x256x3200_S1x256x3200_0_0_0 : ∀ a, (![0, 0, 0] : Fin 3 → Nat) a + S1x256x3200.size a ≤ S1x256x3200.size a
  h_S1x256x3200 : 0 < S1x256x3200.numel
  shapeCasts_S1x256x3200_S1x256x3200 : S1x256x3200.ShapeCasts S1x256x3200
  reduces_S1x256x3200_S1x256 : S1x256x3200.Reduces [2] S1x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S1x256_S1x256x1 : S1x256.ShapeCasts S1x256x1
  broadcasts_S1x256x1_S1x256x3200 : S1x256x1.Broadcasts S1x256x3200
  slices_S32x256x3200_S32x256x3136_0_0_0 : S32x256x3200.Slices ![0, 0, 0] S32x256x3136
  shapeCasts_S32x256x3136_S32x256x56x56 : S32x256x3136.ShapeCasts S32x256x56x56
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3200.size a ≤ S32x256x3200.size a
  hwx0_0 : ∀ i : grid0.Coords, EltTy.bits .f32 = 32 ∨ (Rect.block (s := S32x256x3200) S1x256x3200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3200.size a ≤ S32x256x3200.size a
  hwx0_3 : ∀ i : grid0.Coords, EltTy.bits .f32 = 32 ∨ (Rect.block (s := S32x256x3200) S1x256x3200.size (cc0_transform_3 i) (hinb0_3 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_v3) S1x256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Gate.lean ====
/-
  The squeeze-and-excitation gate, and the facts about its pieces that do not depend on a program.

  Both programs compute, per batch element, `out[c, ·] = x[c, ·] * s[c]` where the gate row `s` is the excitation
  `logistic (relu (y · A) · B)` of the pooled row `y[c] = (Σ over the spatial positions of x[c, ·]) * k` for the one
  literal `k`. The excitation is named here ONCE (`gate`) as a function of the row of sums and the two weight
  matrices, so it is never opened: the two programs differ only in how the spatial positions are laid out (a
  `56 × 56` plane summed over two axes; the same plane flattened to `3136` lanes, padded with `64` zeros and summed over
  one axis) and in how the gate row is spread back over them.
-/
import Idealize.ShloMosaic.Lib.ValueIdx
import Idealize.ShloMosaic.Lib.Pipeline.Value
import Idealize.ShloMosaic.PureOps.Ideal.Laws

noncomputable section

namespace Cert.SEGate

open Idealize.ShloMosaic Idealize.ShloMosaic.ValueIdx

/-- One batch element's row of channels, the hidden row, and the two weight matrices as the bodies load them. -/
abbrev Row : Shape := ⟨2, ![1, 256]⟩
abbrev Hid : Shape := ⟨2, ![1, 16]⟩
abbrev WA : Shape := ⟨2, ![256, 16]⟩
abbrev WB : Shape := ⟨2, ![16, 256]⟩
/-- The activation array, one batch element's plane block, and the same with the plane as `3200` lanes. -/
abbrev Act : Shape := ⟨4, ![32, 256, 56, 56]⟩
abbrev Blk4 : Shape := ⟨4, ![1, 256, 56, 56]⟩
abbrev Blk3 : Shape := ⟨3, ![1, 256, 3200]⟩
abbrev Col4 : Shape := ⟨4, ![1, 256, 1, 1]⟩
abbrev Col3 : Shape := ⟨3, ![1, 256, 1]⟩

section Generic
variable {F : FTy → Type} [FloatOps F]

/-- The excitation: the row of spatial sums `p` scaled by the literal `k`, times `A`, clamped below at zero, times
    `B`, through the logistic function. -/
def gate (p : FVec F Row .f32) (A : FVec F WA .f32) (B : FVec F WB .f32) : FVec F Row .f32 :=
  logistic (matmul (DotDims.plain 1 16 256) none
    (maximumf (matmul (DotDims.plain 1 256 16) none (mulf p (broadcast Row (Scalar.ofBits .f32 0x39A72F05#32))) A
        (constant Hid .f32 0x00000000#32))
      (broadcast Hid (Scalar.ofBits .f32 0x00000000#32)))
    B (constant Row .f32 0x00000000#32))

end Generic

/-! ## The gate row spread over a block -/

/-- The row `[1, 256]` cast to the column `[1, 256, 1, 1]` and broadcast over the `56 × 56` plane reads, at
    `(0, c, a, b)`, the row's entry `c`. -/
theorem spread4 {α : Type} (g : Row.Idx → α) (h1 : Row.ShapeCasts Col4) (h2 : Col4.Broadcasts Blk4)
    (c : Fin 256) (a b : Fin 56) :
    broadcastTo Blk4 (shapeCast Col4 g h1) h2 (ix4 0 c a b) = g (ix2 0 c) := by
  refine (broadcastTo_apply _ h2 (ix4 0 c a b) (ix4 0 c 0 0) fun d => ?_).trans ?_
  · match d with
    | ⟨0, _⟩ => rfl
    | ⟨1, _⟩ => rfl
    | ⟨2, _⟩ => rfl
    | ⟨3, _⟩ => rfl
  · refine shapeCast_apply g h1 (ix4 0 c 0 0) (ix2 0 c) ?_
    rw [Shape.rowMajor_val_two, Shape.rowMajor_val_four]
    show (0 : Fin 1).val * 256 + c.val = (((0 : Fin 1).val * 256 + c.val) * 1 + (0 : Fin 1).val) * 1 + (0 : Fin 1).val
    simp

/-- The row `[1, 256]` cast to the column `[1, 256, 1]` and broadcast over `3200` lanes reads, at `(0, c, l)`, the
    row's entry `c`. -/
theorem spread3 {α : Type} (g : Row.Idx → α) (h1 : Row.ShapeCasts Col3) (h2 : Col3.Broadcasts Blk3)
    (c : Fin 256) (l : Fin 3200) :
    broadcastTo Blk3 (shapeCast Col3 g h1) h2 (ix3 0 c l) = g (ix2 0 c) := by
  refine (broadcastTo_apply _ h2 (ix3 0 c l) (ix3 0 c 0) fun d => ?_).trans ?_
  · match d with
    | ⟨0, _⟩ => rfl
    | ⟨1, _⟩ => rfl
    | ⟨2, _⟩ => rfl
  · refine shapeCast_apply g h1 (ix3 0 c 0) (ix2 0 c) ?_
    rw [Shape.rowMajor_val_two, Shape.rowMajor_val_three]
    show (0 : Fin 1).val * 256 + c.val = ((0 : Fin 1).val * 256 + c.val) * 1 + (0 : Fin 1).val
    simp

/-! ## The rows of spatial sums -/

/-- Summing a `[1, 256, 56, 56]` block over its two plane axes gives, at channel `j 1`, the sum over the plane's
    positions `(a, b)` of the block at `(0, j 1, a, b)`. -/
theorem pool4 (v : FVec Ideal Blk4 .f32) (acc : BitVec 32) (h : Blk4.Reduces [2, 3] Row) (hφ : FKind.Formats .f32)
    (hacc : acc = FKind.add.neutral .f32 hφ) (j : Row.Idx) :
    multiReduction .add [2, 3] Row v acc h hφ hacc j = ∑ p : Fin 56 × Fin 56, v (ix4 0 (j 1) p.1 p.2) := by
  show (∑ i ∈ Finset.univ.filter (fun i => h.drop i = j), v i) = _
  refine Finset.sum_bij' (fun i _ => ((i 2, i 3) : Fin 56 × Fin 56)) (fun p _ => ix4 0 (j 1) p.1 p.2)
    (fun _ _ => Finset.mem_univ _) (fun p _ => ?_) (fun i hi => ?_) (fun _ _ => rfl) (fun i hi => ?_)
  · refine Finset.mem_filter.mpr ⟨Finset.mem_univ _, funext fun b => Fin.ext ?_⟩
    match b with
    | ⟨0, _⟩ =>
      refine (h.drop_apply_val_of_eq (ix4 0 (j 1) p.1 p.2) (0 : Fin 2) (0 : Fin 4)).trans ?_
      have hj0 : (j 0).val < 1 := (j 0).isLt
      show (0 : Fin 1).val = (j 0).val
      simp only [Fin.val_zero]; omega
    | ⟨1, _⟩ => exact h.drop_apply_val_of_eq (ix4 0 (j 1) p.1 p.2) (1 : Fin 2) (1 : Fin 4)
  · have hj := (Finset.mem_filter.mp hi).2
    have e0 : (i 0).val = 0 := by have hi0 : (i 0).val < 1 := (i 0).isLt; omega
    have e1 : (i 1).val = (j 1).val := by
      rw [← hj]; exact (h.drop_apply_val_of_eq i (1 : Fin 2) (1 : Fin 4)).symm
    funext d; apply Fin.ext
    match d with
    | ⟨0, _⟩ => exact e0.symm
    | ⟨1, _⟩ => exact e1.symm
    | ⟨2, _⟩ => rfl
    | ⟨3, _⟩ => rfl
  · have hj := (Finset.mem_filter.mp hi).2
    have e0 : (i 0).val = 0 := by have hi0 : (i 0).val < 1 := (i 0).isLt; omega
    have e1 : (i 1).val = (j 1).val := by
      rw [← hj]; exact (h.drop_apply_val_of_eq i (1 : Fin 2) (1 : Fin 4)).symm
    refine congrArg v (funext fun d => Fin.ext ?_)
    match d with
    | ⟨0, _⟩ => exact e0
    | ⟨1, _⟩ => exact e1
    | ⟨2, _⟩ => rfl
    | ⟨3, _⟩ => rfl

/-- Summing a `[1, 256, 3200]` block over its lane axis gives, at channel `j 1`, the sum over the lanes `l` of the
    block at `(0, j 1, l)`. -/
theorem pool3 (v : FVec Ideal Blk3 .f32) (acc : BitVec 32) (h : Blk3.Reduces [2] Row) (hφ : FKind.Formats .f32)
    (hacc : acc = FKind.add.neutral .f32 hφ) (j : Row.Idx) :
    multiReduction .add [2] Row v acc h hφ hacc j = ∑ l : Fin 3200, v (ix3 0 (j 1) l) := by
  rw [Ideal.multiReduction_add_single]
  refine Finset.sum_congr rfl fun l _ => congrArg v (funext fun d => Fin.ext ?_)
  have e0 : (j 0).val = 0 := by have hj0 : (j 0).val < 1 := (j 0).isLt; omega
  match d with
  | ⟨0, _⟩ => exact e0
  | ⟨1, _⟩ => rfl
  | ⟨2, _⟩ => rfl

/-! ## The specification -/

/-- The row of spatial sums of batch element `b`: at channel `j 1`, the sum of `x (b, j 1, ·, ·)` over the plane. -/
def planeSums (x : Act.Idx → EReal) (b : Fin 32) : Row.Idx → EReal :=
  fun j => ∑ p : Fin 56 × Fin 56, x (ix4 b (j 1) p.1 p.2)

/-- The block's result: every activation times its channel's gate, the gate taken of its batch element's spatial
    sums and the two weight matrices `A : [256, 16]`, `B : [16, 256]`. -/
def SE (x : Act.Idx → EReal) (A : WA.Idx → EReal) (B : WB.Idx → EReal) : Act.Idx → EReal :=
  fun i => x i * gate (F := Ideal) (planeSums x (i 0)) A B (ix2 0 (i 1))

end Cert.SEGate

end
-- ==== Proof.KernelBody.lean ====
/-
  The idealized kernel's body, read at an index.

  One grid point holds one batch element: the body loads the element's `[1, 256, 56, 56]` block and the two weight
  matrices, and stores, at `(0, c, a, b)`, the block's entry there times the gate of channel `c` — the gate being the
  excitation of the row of the block's plane sums.
-/
import proofs.«124171_g2000104507582894_pallasbulk_240_3_alg».proof.Proof.Gen.KernelIdeal.Skeleton
import proofs.«124171_g2000104507582894_pallasbulk_240_3_alg».proof.Proof.Gate

noncomputable section

namespace Cert.KernelIdeal.Body

open Cert.KernelIdeal Cert.KernelIdeal.Gen Cert.SEGate Idealize.ShloMosaic Idealize.ShloMosaic.ValueIdx

/-- The two products' dimension numbers are those of plain matrix products. -/
theorem dotA : dot_S1x256_S256x16_S1x16_1_0_0_1_n_n = DotDims.plain 1 256 16 := rfl
theorem dotB : dot_S1x16_S16x256_S1x256_1_0_0_1_n_n = DotDims.plain 1 16 256 := rfl

section Generic
variable {F : FTy → Type} [FloatOps F]

/-- The stored value: the second load of the block times the gate of the first load's plane sums, the gate row cast
    to a column and broadcast over the plane. -/
theorem stored_eq (v0 : Vec F S1x256x56x56 .f32) (v4 : Vec F S256x16 .f32) (v9 : Vec F S16x256 .f32)
    (v13 : Vec F S1x256x56x56 .f32) :
    k0_pay1 v0 v4 v9 v13 = mulf v13 (broadcastTo S1x256x56x56 (shapeCast S1x256x1x1
      (gate (multiReduction .add [2, 3] S1x256 v0 0x00000000#32 reduces_S1x256x56x56_S1x256 (.inl rfl) rfl) v4 v9)
      shapeCasts_S1x256_S1x256x1x1) broadcasts_S1x256x1x1_S1x256x56x56) := by
  unfold k0_pay1 gate
  dsimp only
  rw [shapeCast_self, shapeCast_self, dotA, dotB]

end Generic

/-- At the ideal values and at `(0, c, a, b)`: the block's entry times channel `c`'s gate, for a block whose
    entries are those of an array `X` at batch element `n`. -/
theorem stored_apply (X : Act.Idx → EReal) (A : WA.Idx → EReal) (B : WB.Idx → EReal) (n : Fin 32)
    (x0 : Vec Ideal S1x256x56x56 .f32) (x1 : Vec Ideal S256x16 .f32) (x2 : Vec Ideal S16x256 .f32)
    (hx : ∀ (c : Fin 256) (a b : Fin 56), x0 (ix4 0 c a b) = X (ix4 n c a b)) (hA : x1 = A) (hB : x2 = B)
    (c : Fin 256) (a b : Fin 56) :
    k0_pay1 x0 x1 x2 x0 (ix4 0 c a b) = SE X A B (ix4 n c a b) := by
  rw [stored_eq]
  show x0 (ix4 0 c a b) * _ = X (ix4 n c a b) * _
  rw [hx, spread4, hA, hB]
  have hp : multiReduction (F := Ideal) .add [2, 3] S1x256 x0 0x00000000#32 reduces_S1x256x56x56_S1x256 (.inl rfl) rfl
      = planeSums X n := by
    funext j
    refine (pool4 x0 _ _ _ _ j).trans ?_
    exact Finset.sum_congr rfl fun p _ => hx (j 1) p.1 p.2
  rw [hp]

end Cert.KernelIdeal.Body

end
-- ==== Proof.KernelWhole.lean ====
/-
  The idealized kernel's result array, whole.

  The grid has one point per batch element; point `t` reads block `t` of the activations (batch element `t`, every
  channel, the whole plane) and the two transposed weight matrices whole, and writes block `t` of the result. The
  blocks tile the result array, so after the run it holds the specification `SE` of the activations and the
  transposed weights, index by index.
-/
import proofs.«124171_g2000104507582894_pallasbulk_240_3_alg».proof.Proof.Gen.KernelIdeal.Value
import proofs.«124171_g2000104507582894_pallasbulk_240_3_alg».proof.Proof.KernelBody
import Idealize.ShloMosaic.Lib.StableHlo.Run

set_option maxRecDepth 16384

noncomputable section

namespace Cert.KernelIdeal.Whole

open Cert.KernelIdeal Cert.KernelIdeal.Gen Cert.SEGate Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the activations' and the result's block index is the point on the batch axis and
    zero on the others; the weights' block index is zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The region finds the first weight matrix transposed, -/
theorem V_main_v0 (c : Dev nD) : (V m c main_v0 : S256x16.Idx → EReal)
    = transpose S256x16 [1, 0] (m ((c : Thread nD τ).loc main_arg1)) transposes_S16x256_S256x16_1_0 := by
  dsimp only [Gen.V, Gen.hostOps0]; after_results

/-- and the second. -/
theorem V_main_v1 (c : Dev nD) : (V m c main_v1 : S16x256.Idx → EReal)
    = transpose S16x256 [1, 0] (m ((c : Thread nD τ).loc main_arg2)) transposes_S256x16_S16x256_1_0 := by
  dsimp only [Gen.V, Gen.hostOps0]; after_results

/-- What point `t` writes back is block `t` of the specification of the arrays as the region finds them. -/
theorem flushed_eq (c : Dev nD) (t : Fin cfg0.N) :
    (dats m 0 c).flushed 3 t = ((cfg0.win 3).blk t).view.read (Elt Ideal)
      (SE (V m c main_arg0) (V m c main_v0) (V m c main_v1)) := by
  rw [Value.flushed3]
  unfold out0_3
  rw [View.canon_unit_zero hz4]
  simp only [View.ld_unit_zero (S := S1x256x56x56) hz4, View.ld_unit_zero (S := S256x16) hz2,
    View.ld_unit_zero (S := S16x256) hz2]
  obtain ⟨e00, e01, e02, e03, e30, e31, e32, e33, e10, e11, e20, e21⟩ := idx_facts t
  refine funext fun (j : S1x256x56x56.Idx) => ?_
  obtain ⟨j0, cc, a, b, rfl⟩ : ∃ (j0 : Fin 1) (cc : Fin 256) (a b : Fin 56), j = ix4 j0 cc a b :=
    ⟨j 0, j 1, j 2, j 3, eq_ix4 j⟩
  obtain rfl : j0 = 0 := Subsingleton.elim _ _
  show k0_pay1 (iblk m c 0 t) (iblk m c 1 t) (iblk m c 2 t) (iblk m c 0 t) (ix4 0 cc a b)
    = SE (V m c main_arg0) (V m c main_v0) (V m c main_v1) (((cfg0.win 3).blk t).view.emb (ix4 0 cc a b))
  refine (Body.stored_apply (V m c main_arg0) (V m c main_v0) (V m c main_v1) (t.cast N_0)
    (iblk m c 0 t) (iblk m c 1 t) (iblk m c 2 t) ?_ ?_ ?_ cc a b).trans ?_
  · intro c' a' b'
    show V m c main_arg0 (((cfg0.win 0).blk t).view.emb (ix4 0 c' a' b')) = _
    refine congrArg _ (funext fun d => Fin.ext ?_)
    match d with
    | ⟨0, _⟩ => show win0_0.index t (0 : Fin 4) * 1 + 1 * (0 : Fin 1).val = t.val; rw [e00]; simp
    | ⟨1, _⟩ => show win0_0.index t (1 : Fin 4) * 256 + 1 * c'.val = c'.val; omega
    | ⟨2, _⟩ => show win0_0.index t (2 : Fin 4) * 56 + 1 * a'.val = a'.val; omega
    | ⟨3, _⟩ => show win0_0.index t (3 : Fin 4) * 56 + 1 * b'.val = b'.val; omega
  · funext y
    show V m c main_v0 (((cfg0.win 1).blk t).view.emb y) = V m c main_v0 y
    refine congrArg _ (funext fun d => Fin.ext ?_)
    match d with
    | ⟨0, _⟩ => show win0_1.index t (0 : Fin 2) * 256 + 1 * (y 0).val = (y 0).val; omega
    | ⟨1, _⟩ => show win0_1.index t (1 : Fin 2) * 16 + 1 * (y 1).val = (y 1).val; omega
  · funext y
    show V m c main_v1 (((cfg0.win 2).blk t).view.emb y) = V m c main_v1 y
    refine congrArg _ (funext fun d => Fin.ext ?_)
    match d with
    | ⟨0, _⟩ => show win0_2.index t (0 : Fin 2) * 16 + 1 * (y 0).val = (y 0).val; omega
    | ⟨1, _⟩ => show win0_2.index t (1 : Fin 2) * 256 + 1 * (y 1).val = (y 1).val; omega
  · refine congrArg _ (funext fun d => Fin.ext ?_)
    match d with
    | ⟨0, _⟩ => show t.val = win0_3.index t (0 : Fin 4) * 1 + 1 * (0 : Fin 1).val; rw [e30]; simp
    | ⟨1, _⟩ => show cc.val = win0_3.index t (1 : Fin 4) * 256 + 1 * cc.val; omega
    | ⟨2, _⟩ => show a.val = win0_3.index t (2 : Fin 4) * 56 + 1 * a.val; omega
    | ⟨3, _⟩ => show b.val = win0_3.index t (3 : Fin 4) * 56 + 1 * b.val; omega

/-- An index of the result array is in point `t`'s block iff each coordinate is in the block's range. -/
theorem mem_blk (t : Fin cfg0.N) (i : S32x256x56x56.Idx) :
    i ∈ ((cfg0.win 3).blk t).view.set ↔ ∀ a : Fin 4, win0_3.index t a * S1x256x56x56.size a ≤ (i a).val
      ∧ (i a).val < win0_3.index t a * S1x256x56x56.size a + S1x256x56x56.size a := by
  show i ∈ ((View.whole main_v2).slice (win0_3.rect t)).set ↔ _
  rw [View.set_slice_whole, Rect.mem_set_unit]
  exact Iff.rfl

/-- Every index of the result array is in the block of the point of its batch element. -/
theorem cover (i : S32x256x56x56.Idx) :
    ∃ t : Fin cfg0.N, (cfg0.win 3).flush t = true ∧ i ∈ ((cfg0.win 3).blk t).view.set := by
  refine ⟨(i 0).cast N_0.symm, flush0_3 _, ?_⟩
  rw [mem_blk]
  obtain ⟨-, -, -, -, e30, e31, e32, e33, -⟩ := idx_facts ((i 0).cast N_0.symm)
  have ht : (((i 0).cast N_0.symm : Fin cfg0.N)).val = (i 0).val := rfl
  have h1 : (i 1).val < 256 := (i 1).isLt
  have h2 : (i 2).val < 56 := (i 2).isLt
  have h3 : (i 3).val < 56 := (i 3).isLt
  intro a
  match a with
  | ⟨0, _⟩ =>
    show win0_3.index ((i 0).cast N_0.symm) (0 : Fin 4) * 1 ≤ (i 0).val
      ∧ (i 0).val < win0_3.index ((i 0).cast N_0.symm) (0 : Fin 4) * 1 + 1
    omega
  | ⟨1, _⟩ =>
    show win0_3.index ((i 0).cast N_0.symm) (1 : Fin 4) * 256 ≤ (i 1).val
      ∧ (i 1).val < win0_3.index ((i 0).cast N_0.symm) (1 : Fin 4) * 256 + 256
    omega
  | ⟨2, _⟩ =>
    show win0_3.index ((i 0).cast N_0.symm) (2 : Fin 4) * 56 ≤ (i 2).val
      ∧ (i 2).val < win0_3.index ((i 0).cast N_0.symm) (2 : Fin 4) * 56 + 56
    omega
  | ⟨3, _⟩ =>
    show win0_3.index ((i 0).cast N_0.symm) (3 : Fin 4) * 56 ≤ (i 3).val
      ∧ (i 3).val < win0_3.index ((i 0).cast N_0.symm) (3 : Fin 4) * 56 + 56
    omega

/-- The result array after the run is the specification of the argument arrays, the weights transposed. -/
theorem final (c : Dev nD) : (dats m 0 c).arrAt 3 cfg0.N
    = SE (m ((c : Thread nD τ).loc main_arg0))
        (transpose S256x16 [1, 0] (m ((c : Thread nD τ).loc main_arg1)) transposes_S16x256_S256x16_1_0)
        (transpose S16x256 [1, 0] (m ((c : Thread nD τ).loc main_arg2)) transposes_S256x16_S16x256_1_0) := by
  rw [(dats m 0 c).arrAt_eq_of_cover 3 _ (fun t _ => flushed_eq m c t) cover, V_main_arg0, V_main_v0, V_main_v1]

/-- The run: the result at the specification, the arguments unchanged. -/
theorem run : θ_run defs (onTc (τ := τ) (main (F := Ideal))) ⟨m, fun _ => 0, ρ⟩ fun r => ∀ c : Dev nD,
      r.2.mem ((c : Thread nD τ).loc main_v2)
        = SE (m ((c : Thread nD τ).loc main_arg0))
            (transpose S256x16 [1, 0] (m ((c : Thread nD τ).loc main_arg1)) transposes_S16x256_S256x16_1_0)
            (transpose S16x256 [1, 0] (m ((c : Thread nD τ).loc main_arg2)) transposes_S256x16_S16x256_1_0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefBody.lean ====
/-
  The idealized reference's body, read at an index.

  One grid point holds one batch element with its plane flattened and padded: the body loads the element's
  `[1, 256, 3200]` block and the two weight matrices, and stores, at `(0, c, l)`, the block's entry there times the gate
  of channel `c` — the gate being the excitation of the row of the block's lane sums.
-/
import proofs.«124171_g2000104507582894_pallasbulk_240_3_alg».proof.Proof.Gen.ReferenceIdeal.Skeleton
import proofs.«124171_g2000104507582894_pallasbulk_240_3_alg».proof.Proof.Gate

noncomputable section

namespace Cert.ReferenceIdeal.Body

open Cert.ReferenceIdeal Cert.ReferenceIdeal.Gen Cert.SEGate Idealize.ShloMosaic Idealize.ShloMosaic.ValueIdx

/-- The two products' dimension numbers are those of plain matrix products. -/
theorem dotA : dot_S1x256_S256x16_S1x16_1_0_0_1_n_n = DotDims.plain 1 256 16 := rfl
theorem dotB : dot_S1x16_S16x256_S1x256_1_0_0_1_n_n = DotDims.plain 1 16 256 := rfl

section Generic
variable {F : FTy → Type} [FloatOps F]

/-- The stored value: the second load of the block times the gate of the first load's lane sums, the gate row cast
    to a column and broadcast over the lanes. -/
theorem stored_eq (v0 : Vec F S1x256x3200 .f32) (v5 : Vec F S256x16 .f32) (v10 : Vec F S16x256 .f32)
    (v14 : Vec F S1x256x3200 .f32) :
    k0_pay1 v0 v5 v10 v14 = mulf v14 (broadcastTo S1x256x3200 (shapeCast S1x256x1
      (gate (multiReduction .add [2] S1x256 v0 0x00000000#32 reduces_S1x256x3200_S1x256 (.inl rfl) rfl) v5 v10)
      shapeCasts_S1x256_S1x256x1) broadcasts_S1x256x1_S1x256x3200) := by
  unfold k0_pay1 gate
  dsimp only
  rw [shapeCast_self, shapeCast_self, shapeCast_self, shapeCast_self, dotA, dotB]

end Generic

/-- The padded activations' result: every entry times its channel's gate, the gate taken of the row of its batch
    element's lane sums. -/
def SEpad (P : (⟨3, ![32, 256, 3200]⟩ : Shape).Idx → EReal) (A : WA.Idx → EReal) (B : WB.Idx → EReal) :
    (⟨3, ![32, 256, 3200]⟩ : Shape).Idx → EReal :=
  fun i => P i * gate (F := Ideal) (fun j => ∑ l : Fin 3200, P (ix3 (i 0) (j 1) l)) A B (ix2 0 (i 1))

/-- At the ideal values and at `(0, c, l)`: the block's entry times channel `c`'s gate, for a block whose entries
    are those of an array `P` at batch element `n`. -/
theorem stored_apply (P : (⟨3, ![32, 256, 3200]⟩ : Shape).Idx → EReal) (A : WA.Idx → EReal) (B : WB.Idx → EReal)
    (n : Fin 32) (x0 : Vec Ideal S1x256x3200 .f32) (x1 : Vec Ideal S256x16 .f32) (x2 : Vec Ideal S16x256 .f32)
    (hx : ∀ (c : Fin 256) (l : Fin 3200), x0 (ix3 0 c l) = P (ix3 n c l)) (hA : x1 = A) (hB : x2 = B)
    (c : Fin 256) (l : Fin 3200) :
    k0_pay1 x0 x1 x2 x0 (ix3 0 c l) = SEpad P A B (ix3 n c l) := by
  rw [stored_eq]
  show x0 (ix3 0 c l) * _ = P (ix3 n c l) * _
  rw [hx, spread3, hA, hB]
  have hp : multiReduction (F := Ideal) .add [2] S1x256 x0 0x00000000#32 reduces_S1x256x3200_S1x256 (.inl rfl) rfl
      = fun j => ∑ l : Fin 3200, P (ix3 n (j 1) l) := by
    funext j
    refine (pool3 x0 _ _ _ _ j).trans ?_
    exact Finset.sum_congr rfl fun l _ => hx (j 1) l
  rw [hp]

end Cert.ReferenceIdeal.Body

end
-- ==== Proof.RefWhole.lean ====
/-
  The idealized reference's result, whole.

  Before its grid the reference flattens each plane of the activations and pads the lanes with the padding value (the
  integer zero converted to a float); the grid has one point per batch element, point `t` reading block `t` of the
  padded array and the two transposed weight matrices whole, and writing block `t` of a padded result; after the grid
  the padding lanes are cut off and the planes restored. The blocks tile the padded result, so it ends holding the
  padded specification, and the program's result is that array sliced and reshaped.
-/
import proofs.«124171_g2000104507582894_pallasbulk_240_3_alg».proof.Proof.Gen.ReferenceIdeal.Frame
import proofs.«124171_g2000104507582894_pallasbulk_240_3_alg».proof.Proof.RefBody
import Idealize.ShloMosaic.Lib.StableHlo.Run
import Idealize.ShloMosaic.Lib.Pipeline.Value

set_option maxRecDepth 16384

noncomputable section

namespace Cert.ReferenceIdeal.Whole

open Cert.ReferenceIdeal Cert.ReferenceIdeal.Gen Cert.ReferenceIdeal.Body Cert.SEGate
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the padded activations' and the padded result's block index is the point on the
    batch axis and zero on the others; the weights' block index is zero. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The padding value: the integer zero converted. -/
abbrev padValue : S_.Idx → EReal := sitofp (F := Ideal) .f32 (constantI S_ 32 0#32)

/-- The padded activations: each plane flattened, then `64` lanes of the padding value appended. -/
abbrev paddedOf (x : S32x256x56x56.Idx → EReal) : S32x256x3200.Idx → EReal :=
  pad S32x256x3200 ![0, 0, 0] ![0, 0, 64] ![0, 0, 0] (shapeCast S32x256x3136 x shapeCasts_S32x256x56x56_S32x256x3136)
    padValue pads_S32x256x3136_S32x256x3200_000_000_0640 h_S_

/-- The region finds the padded activations, -/
theorem V_main_v3 (c : Dev nD) : (V m c main_v3 : S32x256x3200.Idx → EReal)
    = paddedOf (m ((c : Thread nD τ).loc main_arg0)) := by
  dsimp only [Gen.V, Gen.V0]
  simp only [Gen.hostOps0, Gen.hostOps0_1, List.flatten_cons, List.flatten_nil, List.append_nil, List.cons_append,
    List.nil_append]
  after_results
  rfl

/-- the first weight matrix transposed, -/
theorem V_main_v1 (c : Dev nD) : (V m c main_v1 : S256x16.Idx → EReal)
    = transpose S256x16 [1, 0] (m ((c : Thread nD τ).loc main_arg1)) transposes_S16x256_S256x16_1_0 := by
  dsimp only [Gen.V, Gen.V0]
  simp only [Gen.hostOps0, Gen.hostOps0_1, List.flatten_cons, List.flatten_nil, List.append_nil, List.cons_append,
    List.nil_append]
  after_results

/-- and the second. -/
theorem V_main_v2 (c : Dev nD) : (V m c main_v2 : S16x256.Idx → EReal)
    = transpose S16x256 [1, 0] (m ((c : Thread nD τ).loc main_arg2)) transposes_S256x16_S16x256_1_0 := by
  dsimp only [Gen.V, Gen.V0]
  simp only [Gen.hostOps0, Gen.hostOps0_1, List.flatten_cons, List.flatten_nil, List.append_nil, List.cons_append,
    List.nil_append]
  after_results

/-- What point `t` writes back is block `t` of the padded specification of the arrays as the region finds them. -/
theorem flushed_eq (c : Dev nD) (t : Fin cfg0.N) :
    (dats m 0 c).flushed 3 t = ((cfg0.win 3).blk t).view.read (Elt Ideal)
      (SEpad (V m c main_v3) (V m c main_v1) (V m c main_v2)) := by
  show (cfg0.win 3).cut (grid0.coords t) ((dats m 0 c).after 3 t) = _
  rw [after0_3]
  unfold out0_3
  rw [View.canon_unit_zero hz3]
  simp only [View.ld_unit_zero (S := S1x256x3200) hz3, View.ld_unit_zero (S := S256x16) hz2,
    View.ld_unit_zero (S := S16x256) hz2]
  obtain ⟨e00, e01, e02, e30, e31, e32, e10, e11, e20, e21⟩ := idx_facts t
  refine funext fun (j : S1x256x3200.Idx) => ?_
  obtain ⟨j0, cc, l, rfl⟩ : ∃ (j0 : Fin 1) (cc : Fin 256) (l : Fin 3200), j = ix3 j0 cc l :=
    ⟨j 0, j 1, j 2, eq_ix3 j⟩
  obtain rfl : j0 = 0 := Subsingleton.elim _ _
  show k0_pay1 (iblk m c 0 t) (iblk m c 1 t) (iblk m c 2 t) (iblk m c 0 t) (ix3 0 cc l)
    = SEpad (V m c main_v3) (V m c main_v1) (V m c main_v2) (((cfg0.win 3).blk t).view.emb (ix3 0 cc l))
  refine (Body.stored_apply (V m c main_v3) (V m c main_v1) (V m c main_v2) (t.cast N_0)
    (iblk m c 0 t) (iblk m c 1 t) (iblk m c 2 t) ?_ ?_ ?_ cc l).trans ?_
  · intro c' l'
    show V m c main_v3 (((cfg0.win 0).blk t).view.emb (ix3 0 c' l')) = _
    refine congrArg _ (funext fun d => Fin.ext ?_)
    match d with
    | ⟨0, _⟩ => show win0_0.index t (0 : Fin 3) * 1 + 1 * (0 : Fin 1).val = t.val; rw [e00]; simp
    | ⟨1, _⟩ => show win0_0.index t (1 : Fin 3) * 256 + 1 * c'.val = c'.val; omega
    | ⟨2, _⟩ => show win0_0.index t (2 : Fin 3) * 3200 + 1 * l'.val = l'.val; omega
  · funext y
    show V m c main_v1 (((cfg0.win 1).blk t).view.emb y) = V m c main_v1 y
    refine congrArg _ (funext fun d => Fin.ext ?_)
    match d with
    | ⟨0, _⟩ => show win0_1.index t (0 : Fin 2) * 256 + 1 * (y 0).val = (y 0).val; omega
    | ⟨1, _⟩ => show win0_1.index t (1 : Fin 2) * 16 + 1 * (y 1).val = (y 1).val; omega
  · funext y
    show V m c main_v2 (((cfg0.win 2).blk t).view.emb y) = V m c main_v2 y
    refine congrArg _ (funext fun d => Fin.ext ?_)
    match d with
    | ⟨0, _⟩ => show win0_2.index t (0 : Fin 2) * 16 + 1 * (y 0).val = (y 0).val; omega
    | ⟨1, _⟩ => show win0_2.index t (1 : Fin 2) * 256 + 1 * (y 1).val = (y 1).val; omega
  · refine congrArg _ (funext fun d => Fin.ext ?_)
    match d with
    | ⟨0, _⟩ => show t.val = win0_3.index t (0 : Fin 3) * 1 + 1 * (0 : Fin 1).val; rw [e30]; simp
    | ⟨1, _⟩ => show cc.val = win0_3.index t (1 : Fin 3) * 256 + 1 * cc.val; omega
    | ⟨2, _⟩ => show l.val = win0_3.index t (2 : Fin 3) * 3200 + 1 * l.val; omega

/-- An index of the padded result is in point `t`'s block iff each coordinate is in the block's range. -/
theorem mem_blk (t : Fin cfg0.N) (i : S32x256x3200.Idx) :
    i ∈ ((cfg0.win 3).blk t).view.set ↔ ∀ a : Fin 3, win0_3.index t a * S1x256x3200.size a ≤ (i a).val
      ∧ (i a).val < win0_3.index t a * S1x256x3200.size a + S1x256x3200.size a := by
  show i ∈ ((View.whole main_v4).slice (win0_3.rect t)).set ↔ _
  rw [View.set_slice_whole, Rect.mem_set_unit]
  exact Iff.rfl

/-- Every index of the padded result is in the block of the point of its batch element. -/
theorem cover (i : S32x256x3200.Idx) :
    ∃ t : Fin cfg0.N, (cfg0.win 3).flush t = true ∧ i ∈ ((cfg0.win 3).blk t).view.set := by
  refine ⟨(i 0).cast N_0.symm, flush0_3 _, ?_⟩
  rw [mem_blk]
  obtain ⟨-, -, -, e30, e31, e32, -⟩ := idx_facts ((i 0).cast N_0.symm)
  have ht : (((i 0).cast N_0.symm : Fin cfg0.N)).val = (i 0).val := rfl
  have h1 : (i 1).val < 256 := (i 1).isLt
  have h2 : (i 2).val < 3200 := (i 2).isLt
  intro a
  match a with
  | ⟨0, _⟩ =>
    show win0_3.index ((i 0).cast N_0.symm) (0 : Fin 3) * 1 ≤ (i 0).val
      ∧ (i 0).val < win0_3.index ((i 0).cast N_0.symm) (0 : Fin 3) * 1 + 1
    omega
  | ⟨1, _⟩ =>
    show win0_3.index ((i 0).cast N_0.symm) (1 : Fin 3) * 256 ≤ (i 1).val
      ∧ (i 1).val < win0_3.index ((i 0).cast N_0.symm) (1 : Fin 3) * 256 + 256
    omega
  | ⟨2, _⟩ =>
    show win0_3.index ((i 0).cast N_0.symm) (2 : Fin 3) * 3200 ≤ (i 2).val
      ∧ (i 2).val < win0_3.index ((i 0).cast N_0.symm) (2 : Fin 3) * 3200 + 3200
    omega

/-- The padded result after the grid is the padded specification of the padded activations and the transposed
    weights. -/
theorem final (c : Dev nD) : (dats m 0 c).arrAt 3 cfg0.N
    = SEpad (paddedOf (m ((c : Thread nD τ).loc main_arg0)))
        (transpose S256x16 [1, 0] (m ((c : Thread nD τ).loc main_arg1)) transposes_S16x256_S256x16_1_0)
        (transpose S16x256 [1, 0] (m ((c : Thread nD τ).loc main_arg2)) transposes_S256x16_S16x256_1_0) := by
  rw [(dats m 0 c).arrAt_eq_of_cover 3 _ (fun t _ => flushed_eq m c t) cover, V_main_v3, V_main_v1, V_main_v2]

/-- The program's result after the lines that follow the grid: the padded result sliced to `3136` lanes and reshaped
    to planes. -/
theorem result_eq (c : Dev nD) :
    (Pipeline.afterTail₀ cfgs (dats m) 0 (V0 m) [hostOps1] c main_v6 : S32x256x56x56.Idx → EReal)
      = shapeCast S32x256x56x56 (extractStridedSlice S32x256x3136 ![0, 0, 0]
          (SEpad (paddedOf (m ((c : Thread nD τ).loc main_arg0)))
            (transpose S256x16 [1, 0] (m ((c : Thread nD τ).loc main_arg1)) transposes_S16x256_S256x16_1_0)
            (transpose S16x256 [1, 0] (m ((c : Thread nD τ).loc main_arg2)) transposes_S256x16_S16x256_1_0))
          slices_S32x256x3200_S32x256x3136_0_0_0) shapeCasts_S32x256x3136_S32x256x56x56 := by
  unfold Pipeline.afterTail₀
  show StableHlo.after hostOps1 _ (Proc.devRef .tc main_v6) = _
  after_results
  rw [← final m c]
  have hw : Pipeline.withArrays (cfgs 0).spec c (V0 m c) (fun w => (dats m 0 c).arrAt w (cfgs 0).N)
      (Proc.devRef .tc main_v4) = (dats m 0 c).arrAt 3 cfg0.N :=
    Pipeline.withArrays_arr spec0 launch0.win.arr_inj c (V0 m c) (fun w => (dats m 0 c).arrAt w (cfgs 0).N) 3
  rw [hw]
  rfl

end Cert.ReferenceIdeal.Whole

end
-- ==== Proof.PadBridge.lean ====
/-
  Flattening the plane, padding the lanes, and undoing both.

  The reference flattens each `56 × 56` plane to `3136` lanes (position `(a, b)` is lane `56 a + b`), pads with `64`
  lanes of the padding value, runs the same gate over `3200` lanes, then cuts the `64` lanes off and restores the
  plane. When the padding value is zero the `3200` lanes of a channel sum to its plane's sum — a sum in a commutative
  monoid may be regrouped and zeros dropped, at infinite entries too — so the reference's result is the
  specification `SE`.
-/
import proofs.«124171_g2000104507582894_pallasbulk_240_3_alg».proof.Proof.RefBody
import Idealize.ShloMosaic.Lib.KernelVsHost

noncomputable section

namespace Cert.SEGate.Bridge

open Cert.SEGate Cert.ReferenceIdeal.Body Idealize.ShloMosaic Idealize.ShloMosaic.ValueIdx

/-- The activations with each plane flattened, and the same padded to `3200` lanes; the padding value's shape. -/
abbrev Flat : Shape := ⟨3, ![32, 256, 3136]⟩
abbrev Padded : Shape := ⟨3, ![32, 256, 3200]⟩
abbrev Sc : Shape := ⟨0, ![]⟩

variable (x : Act.Idx → EReal) (y : Flat.Idx → EReal) (z : Sc.Idx → EReal) (hc : Act.ShapeCasts Flat)
  (hp : Flat.Pads ![0, 0, 0] ![0, 0, 64] ![0, 0, 0] Padded) (hu : 0 < Sc.numel)

/-- Lane `56 a + b` of the flattened plane is position `(a, b)`. -/
theorem flat_apply (n : Fin 32) (c : Fin 256) (a b : Fin 56) (l : Fin 3136) (hl : l.val = a.val * 56 + b.val) :
    shapeCast Flat x hc (ix3 n c l) = x (ix4 n c a b) := by
  refine shapeCast_apply x hc (ix3 n c l) (ix4 n c a b) ?_
  rw [Shape.rowMajor_val_four, Shape.rowMajor_val_three]
  show ((n.val * 256 + c.val) * 56 + a.val) * 56 + b.val = (n.val * 256 + c.val) * 3136 + l.val
  omega

/-- A lane below `3136` of the padded array is the flattened array's lane. -/
theorem padded_inside (n : Fin 32) (c : Fin 256) (l : Fin 3200) (l' : Fin 3136) (h : l.val = l'.val) :
    pad Padded ![0, 0, 0] ![0, 0, 64] ![0, 0, 0] y z hp hu (ix3 n c l) = y (ix3 n c l') := by
  refine pad_apply_of_inside _ _ _ y z hp hu (ix3 n c l) (ix3 n c l') fun d => ?_
  match d with
  | ⟨0, _⟩ => show n.val = 0 + n.val * (0 + 1); omega
  | ⟨1, _⟩ => show c.val = 0 + c.val * (0 + 1); omega
  | ⟨2, _⟩ => show l.val = 0 + l'.val * (0 + 1); omega

/-- A lane from `3136` on is the padding value. -/
theorem padded_outside (n : Fin 32) (c : Fin 256) (l : Fin 3200) (h : 3136 ≤ l.val) :
    pad Padded ![0, 0, 0] ![0, 0, 64] ![0, 0, 0] y z hp hu (ix3 n c l) = z (Shape.Idx.first hu) := by
  refine pad_apply_of_not_inside _ _ _ y z hp hu (ix3 n c l) (2 : Fin 3) ?_
  show ¬(0 ≤ l.val ∧ (l.val - 0) % (0 + 1) = 0 ∧ (l.val - 0) / (0 + 1) < 3136)
  omega

/-- With zero padding a channel's `3200` lanes sum to its plane's sum. -/
theorem lane_sums (hz : z (Shape.Idx.first hu) = 0) (n : Fin 32) (c : Fin 256) :
    (∑ l : Fin 3200, pad Padded ![0, 0, 0] ![0, 0, 64] ![0, 0, 0] (shapeCast Flat x hc) z hp hu (ix3 n c l))
      = ∑ p : Fin 56 × Fin 56, x (ix4 n c p.1 p.2) := by
  have split : ∀ f : Fin 3200 → EReal,
      ∑ l : Fin 3200, f l = ∑ l : Fin 3136, f (Fin.castAdd 64 l) + ∑ l : Fin 64, f (Fin.natAdd 3136 l) :=
    fun f => Fin.sum_univ_add (a := 3136) (b := 64) f
  rw [split]
  have tail : (∑ l : Fin 64, pad Padded ![0, 0, 0] ![0, 0, 64] ![0, 0, 0] (shapeCast Flat x hc) z hp hu
      (ix3 n c (Fin.natAdd 3136 l))) = 0 :=
    Finset.sum_eq_zero fun l _ => by
      rw [padded_outside _ z hp hu n c (Fin.natAdd 3136 l) (by show 3136 ≤ 3136 + l.val; omega), hz]
  rw [tail, add_zero]
  refine ((Equiv.sum_comp (finProdFinEquiv (m := 56) (n := 56)) (fun l : Fin (56 * 56) =>
    pad Padded ![0, 0, 0] ![0, 0, 64] ![0, 0, 0] (shapeCast Flat x hc) z hp hu (ix3 n c (Fin.castAdd 64 l)))).symm).trans ?_
  refine Finset.sum_congr rfl fun p _ => ?_
  have hv : (finProdFinEquiv (m := 56) (n := 56) p).val = p.2.val + 56 * p.1.val := rfl
  rw [padded_inside _ z hp hu n c _ (finProdFinEquiv (m := 56) (n := 56) p) rfl,
    flat_apply x hc n c p.1 p.2 _ (by rw [hv]; omega)]

/-- The padded specification with the padding lanes cut off and the plane restored is the specification. -/
theorem unflatten (A : WA.Idx → EReal) (B : WB.Idx → EReal) (hz : z (Shape.Idx.first hu) = 0)
    (hs : Padded.Slices ![0, 0, 0] Flat) (hc' : Flat.ShapeCasts Act) :
    shapeCast Act (extractStridedSlice Flat ![0, 0, 0]
      (SEpad (pad Padded ![0, 0, 0] ![0, 0, 64] ![0, 0, 0] (shapeCast Flat x hc) z hp hu) A B) hs) hc'
      = SE x A B := by
  funext i
  obtain ⟨n, c, a, b, rfl⟩ : ∃ (n : Fin 32) (c : Fin 256) (a b : Fin 56), i = ix4 n c a b :=
    ⟨i 0, i 1, i 2, i 3, eq_ix4 i⟩
  have ha : a.val < 56 := a.isLt
  have hb : b.val < 56 := b.isLt
  have hl : a.val * 56 + b.val < 3136 := by omega
  have hL : a.val * 56 + b.val < 3200 := by omega
  refine (shapeCast_apply _ hc' (ix4 n c a b) (ix3 n c (⟨a.val * 56 + b.val, hl⟩ : Fin 3136)) ?_).trans ?_
  · rw [Shape.rowMajor_val_four, Shape.rowMajor_val_three]
    show (n.val * 256 + c.val) * 3136 + (a.val * 56 + b.val) = ((n.val * 256 + c.val) * 56 + a.val) * 56 + b.val
    omega
  refine (extractStridedSlice_apply _ _ hs (ix3 n c (⟨a.val * 56 + b.val, hl⟩ : Fin 3136))
    (ix3 n c (⟨a.val * 56 + b.val, hL⟩ : Fin 3200)) fun d => ?_).trans ?_
  · match d with
    | ⟨0, _⟩ => show n.val = 0 + n.val; omega
    | ⟨1, _⟩ => show c.val = 0 + c.val; omega
    | ⟨2, _⟩ => show a.val * 56 + b.val = 0 + (a.val * 56 + b.val); omega
  show pad Padded ![0, 0, 0] ![0, 0, 64] ![0, 0, 0] (shapeCast Flat x hc) z hp hu (ix3 n c ⟨a.val * 56 + b.val, hL⟩)
      * gate (F := Ideal) (fun j => ∑ l : Fin 3200,
          pad Padded ![0, 0, 0] ![0, 0, 64] ![0, 0, 0] (shapeCast Flat x hc) z hp hu (ix3 n (j 1) l)) A B (ix2 0 c)
    = x (ix4 n c a b) * gate (F := Ideal) (planeSums x n) A B (ix2 0 c)
  rw [padded_inside _ z hp hu n c _ (⟨a.val * 56 + b.val, hl⟩ : Fin 3136) rfl, flat_apply x hc n c a b _ rfl]
  have hsum : (fun j : Row.Idx => ∑ l : Fin 3200,
      pad Padded ![0, 0, 0] ![0, 0, 64] ![0, 0, 0] (shapeCast Flat x hc) z hp hu (ix3 n (j 1) l)) = planeSums x n :=
    funext fun j => lane_sums x z hc hp hu hz n (j 1)
  rw [hsum]

end Cert.SEGate.Bridge

end
-- ==== Proof.RefRun.lean ====
/-
  The idealized reference's run, with its result at the specification.

  The padding value is the integer zero converted to a float, which is the real zero; so the padded specification,
  sliced and reshaped (what the program's result holds after the lines that follow the grid), is the specification
  `SE` of the argument arrays and the transposed weights.
-/
import proofs.«124171_g2000104507582894_pallasbulk_240_3_alg».proof.Proof.RefWhole
import proofs.«124171_g2000104507582894_pallasbulk_240_3_alg».proof.Proof.PadBridge

set_option maxRecDepth 16384

noncomputable section

namespace Cert.ReferenceIdeal.Whole

open Cert.ReferenceIdeal Cert.ReferenceIdeal.Gen Cert.ReferenceIdeal.Body Cert.SEGate
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The padding value is zero. -/
theorem padValue_zero : padValue (Shape.Idx.first h_S_) = 0 := by
  show (((0#32 : BitVec 32).toInt : ℝ) : EReal) = 0
  simp

/-- The program's result is the specification of the argument arrays, the weights transposed. -/
theorem result_spec (c : Dev nD) :
    (Pipeline.afterTail₀ cfgs (dats m) 0 (V0 m) [hostOps1] c main_v6 : S32x256x56x56.Idx → EReal)
      = SE (m ((c : Thread nD τ).loc main_arg0))
          (transpose S256x16 [1, 0] (m ((c : Thread nD τ).loc main_arg1)) transposes_S16x256_S256x16_1_0)
          (transpose S16x256 [1, 0] (m ((c : Thread nD τ).loc main_arg2)) transposes_S256x16_S16x256_1_0) :=
  (result_eq m c).trans
    (Bridge.unflatten (x := m ((c : Thread nD τ).loc main_arg0)) (z := padValue)
      (hc := shapeCasts_S32x256x56x56_S32x256x3136) (hp := pads_S32x256x3136_S32x256x3200_000_000_0640) (hu := h_S_)
      _ _ padValue_zero slices_S32x256x3200_S32x256x3136_0_0_0 shapeCasts_S32x256x3136_S32x256x56x56)

/-- The run: the result at the specification, the arguments unchanged. -/
theorem run : θ_run defs (onTc (τ := τ) (main (F := Ideal))) ⟨m, fun _ => 0, ρ⟩ fun r => ∀ c : Dev nD,
      r.2.mem ((c : Thread nD τ).loc main_v6)
        = SE (m ((c : Thread nD τ).loc main_arg0))
            (transpose S256x16 [1, 0] (m ((c : Thread nD τ).loc main_arg1)) transposes_S16x256_S256x16_1_0)
            (transpose S16x256 [1, 0] (m ((c : Thread nD τ).loc main_arg2)) transposes_S256x16_S16x256_1_0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v6 (Pipeline.mem_restRefs_of main_v6 (by decide) (by decide))).trans (result_spec m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Whole

end
-- ==== Proof.lean ====
/-
  A squeeze-and-excitation block computed two ways, equal over the extended reals.

  Both programs map activations `x : [32, 256, 56, 56]` and weights `w1 : [16, 256]`, `w2 : [256, 16]` to
  `out (n, c, a, b) = x (n, c, a, b) · s (n, c)`, where the gate row `s (n, ·)` is the excitation — scale by one literal,
  multiply by `w1ᵀ`, clamp below at zero, multiply by `w2ᵀ`, take the logistic function — of the row of plane sums
  `Σ_{a, b} x (n, c, a, b)`. The kernel takes one batch element's `[256, 56, 56]` block per grid point and sums each
  plane over its two axes. The reference flattens each plane to `3136` lanes, pads to `3200` lanes with zeros, runs
  the same body on `[256, 3200]` blocks summing over the one lane axis, then cuts the padding off and restores the
  planes. The two results are one function of the arguments (`Cert.SEGate.SE`):

  * the excitation is the same term on both sides, a function of the row of sums and the two transposed weight
    matrices, and is never opened (Gate.lean, `gate`);
  * each body's stored value is its block's entry times that gate of the block's sums (KernelBody.lean,
    RefBody.lean), and the blocks tile the result array (KernelWhole.lean, RefWhole.lean);
  * a channel's `3200` padded lanes sum to its plane's sum: a finite sum in a commutative monoid may be regrouped
    and its zero terms dropped, which holds on the extended reals with no finiteness assumption, so the precondition
    is not used (PadBridge.lean).

  The three frame claims are the programs' generated frames; the idealization rewrote no operation, so its claim is
  `True`.
-/
import proofs.«124171_g2000104507582894_pallasbulk_240_3_alg».proof.Defs
import proofs.«124171_g2000104507582894_pallasbulk_240_3_alg».proof.Proof.Gen.Kernel
import proofs.«124171_g2000104507582894_pallasbulk_240_3_alg».proof.Proof.Gen.Kernel.Skeleton
import proofs.«124171_g2000104507582894_pallasbulk_240_3_alg».proof.Proof.Gen.Kernel.Launch
import proofs.«124171_g2000104507582894_pallasbulk_240_3_alg».proof.Proof.Gen.Kernel.Points
import proofs.«124171_g2000104507582894_pallasbulk_240_3_alg».proof.Proof.Gen.Kernel.Frame
import proofs.«124171_g2000104507582894_pallasbulk_240_3_alg».proof.Proof.Gen.KernelIdeal
import proofs.«124171_g2000104507582894_pallasbulk_240_3_alg».proof.Proof.Gen.KernelIdeal.Skeleton
import proofs.«124171_g2000104507582894_pallasbulk_240_3_alg».proof.Proof.Gen.KernelIdeal.Launch
import proofs.«124171_g2000104507582894_pallasbulk_240_3_alg».proof.Proof.Gen.KernelIdeal.Points
import proofs.«124171_g2000104507582894_pallasbulk_240_3_alg».proof.Proof.Gen.KernelIdeal.Frame
import proofs.«124171_g2000104507582894_pallasbulk_240_3_alg».proof.Proof.Gen.KernelIdeal.Value
import proofs.«124171_g2000104507582894_pallasbulk_240_3_alg».proof.Proof.Gen.ReferenceIdeal
import proofs.«124171_g2000104507582894_pallasbulk_240_3_alg».proof.Proof.Gen.ReferenceIdeal.Skeleton
import proofs.«124171_g2000104507582894_pallasbulk_240_3_alg».proof.Proof.Gen.ReferenceIdeal.Launch
import proofs.«124171_g2000104507582894_pallasbulk_240_3_alg».proof.Proof.Gen.ReferenceIdeal.Points
import proofs.«124171_g2000104507582894_pallasbulk_240_3_alg».proof.Proof.Gen.ReferenceIdeal.Frame
import proofs.«124171_g2000104507582894_pallasbulk_240_3_alg».proof.Proof.Gen.Pre_finite_inputs
import proofs.«124171_g2000104507582894_pallasbulk_240_3_alg».proof.Proof.KernelWhole
import proofs.«124171_g2000104507582894_pallasbulk_240_3_alg».proof.Proof.RefRun
import Idealize.ShloMosaic.Adequacy
import Idealize.ShloMosaic.Init

noncomputable section

namespace Cert.Proof

open Idealize.ShloMosaic Idealize.ShloMosaic.TcCoe Idealize.SL.Sem

/-- The idealized kernel and the idealized reference, run from memories that agree on the arguments, both end with
    their result at the specification `SE` of the activations and the transposed weights. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
